-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1x4096 : Shape := ⟨2, ![1, 4096]⟩
abbrev S128x1024 : Shape := ⟨2, ![128, 1024]⟩
abbrev S128x4096 : Shape := ⟨2, ![128, 4096]⟩

abbrev nBuf : Space → Nat
  | .hbm => 31
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .bf16⟩
  | .hbm, ⟨21, _⟩ => ⟨S4096x1024, .f32⟩
  | .hbm, ⟨22, _⟩ => ⟨S4096x1024, .bf16⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S4096, .f32⟩
  | .hbm, ⟨28, _⟩ => ⟨S1x4096, .f32⟩
  | .hbm, ⟨29, _⟩ => ⟨S4096x1024, .f32⟩
  | .hbm, ⟨30, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S128x1024_S128x1024_0_0 : ∀ a, (![0, 0] : Fin 2 → Nat) a + S128x1024.size a ≤ S128x1024.size a
  h_S128x1024 : 0 < S128x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S4096x1024_S128x4096_1_1_0_0_n_n_wf : DotDims.WF S128x1024 S4096x1024 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S4096x1024.size a
  hwx0_6 : ∀ i : grid0.Coords, EltTy.bits .f32 = 32 ∨ (Rect.block (s := S4096x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S4096x1024.size a
  hwx0_7 : ∀ i : grid0.Coords, EltTy.bits .f32 = 32 ∨ (Rect.block (s := S4096x1024) S128x1024.size (cc0_transform_7 i) (hinb0_7 i)).WholeWords (EltTy.packing .f32)

variable [Facts₀]

def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 85
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S1x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_cst_0 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_1 : Ref sig .tc := ⟨.hbm, 47, rfl⟩
abbrev main_v26 : Ref sig .tc := ⟨.hbm, 48, rfl⟩
abbrev main_v27 : Ref sig .tc := ⟨.hbm, 49, rfl⟩
abbrev main_cst_2 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_3 : Ref sig .tc := ⟨.hbm, 74, rfl⟩
abbrev main_v51 : Ref sig .tc := ⟨.hbm, 75, rfl⟩
abbrev main_v52 : Ref sig .tc := ⟨.hbm, 76, rfl⟩
abbrev main_cst_4 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  dot_S4096x1024_S1024x1024_S4096x1024_1_1_0_0_n_n_wf : DotDims.WF S4096x1024 S1024x1024 S4096x1024 [1] [1] [0] [0] [] []

variable [Facts₀]

def dot_S4096x1024_S1024x1024_S4096x1024_1_1_0_0_n_n : DotDims S4096x1024 S1024x1024 S4096x1024 where
  lhsContracting := [1]
  rhsContracting := [1]
  lhsNonContracting := [0]
  rhsNonContracting := [0]
  lhsBatch := []
  rhsBatch := []
  wf := dot_S4096x1024_S1024x1024_S4096x1024_1_1_0_0_n_n_wf

class Facts : Prop extends Facts₀ where

variable [Facts]
-- ==== Proof.KernelRegion.lean ====
/-
  The launch of the one gridded kernel of `Kernel`, at any float instance.

  Before the launch the program stacks the four input-side weight matrices and the four hidden-side weight matrices
  row-wise into two [4096, 1024] arrays, narrows both, adds the paired bias vectors, and lays the four sums side by side
  as one [1, 4096] row: ten whole-array operations, none of which writes an argument.  The kernel then runs over 32 grid
  points; point `t` is handed rows 128·t … 128·t+127 of the three activations, the two weight stacks and the bias row
  whole (they are brought in once and stay), and two fresh [128, 1024] tiles for the new hidden and cell states.

  What one grid point does is two stores, each covering its whole tile with a pure function of the six blocks read
  (`newHidden`, `newCell` below; the arithmetic is the payloads of the kernel's skeleton).  From this the pipeline
  library gives the run: every execution ends, nothing faults, every argument array ends as it started, and each result
  array is what the library assembles from the tiles written back point by point (`run_main`, `frame`).
-/
import proofs.«179367_j14654428413974_2_alg».proof.Proof.Gen.Kernel.Launch
import proofs.«179367_j14654428413974_2_alg».proof.Proof.Gen.Kernel.Skeleton
import proofs.«179367_j14654428413974_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- What each buffer of a core holds when the kernel is launched: the start contents with the ten whole-array
    operations applied in order. -/
abbrev V (c : Dev nD) (b : Ref sig .tc) : Buf (Elt F) ((c : Thread nD τ).loc b) := StableHlo.after hostOps0 (fun b => m (c, b)) b

/-- None of the ten operations allocates anything. -/
theorem hostOps0_fresh : (hostOps0 : List (HloOp τ sig (Elt F))).Forall fun op => op.fresh = ∅ := by
  simp only [List.Forall]; repeat' constructor

/-- The program is those ten operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the launch writes argument 0: the launch finds it as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 1: the launch finds it as it was at the start. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 2: the launch finds it as it was at the start. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 3: the launch finds it as it was at the start. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 4: the launch finds it as it was at the start. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 5: the launch finds it as it was at the start. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 6: the launch finds it as it was at the start. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 7: the launch finds it as it was at the start. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 8: the launch finds it as it was at the start. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 9: the launch finds it as it was at the start. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 10: the launch finds it as it was at the start. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 11: the launch finds it as it was at the start. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 12: the launch finds it as it was at the start. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 13: the launch finds it as it was at the start. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 14: the launch finds it as it was at the start. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 15: the launch finds it as it was at the start. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 16: the launch finds it as it was at the start. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 17: the launch finds it as it was at the start. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 18: the launch finds it as it was at the start. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The blocks the grid points are handed -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's tile holds its block at every point, whether the point brought it in or an earlier one did
    (then the block index has not moved since). -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## Arguments unchanged, from the run's end state -/

/-- A run ending with every windowed array at what the library assembles and every other unwindowed buffer as the
    launch found it ends with all nineteen arguments as they started: three are input windows' arrays, sixteen are
    read only by the operations before the launch. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## One grid point -/

/-- The whole [128, 1024] tile, the whole [4096, 1024] stack, the whole [1, 4096] row: every access of the kernel
    is one of these. -/
abbrev rTile : Rect S128x1024 := Rect.unit (s := S128x1024) ![0, 0] S128x1024.size inb_S128x1024_S128x1024_0_0
abbrev rStack : Rect S4096x1024 := Rect.unit (s := S4096x1024) ![0, 0] S4096x1024.size inb_S4096x1024_S4096x1024_0_0
abbrev rBias : Rect S1x4096 := Rect.unit (s := S1x4096) ![0, 0] S1x4096.size inb_S1x4096_S1x4096_0_0

/-- The new hidden state's tile after a grid point, from the six blocks read: one store over the whole tile. -/
def newHidden (x0 x1 x2 : Vec F S128x1024 .f32) (x3 x4 : Vec F S4096x1024 .bf16) (x5 : Vec F S1x4096 .f32) : Vec F S128x1024 .f32 :=
  View.canon [⟨rTile, k0_pay3 (View.ld x0 rTile) (View.ld x1 rTile) (View.ld x2 rTile) (View.ld x3 rStack) (View.ld x4 rStack) (View.ld x5 rBias)⟩]

/-- The new cell state's tile after a grid point: one store over the whole tile. -/
def newCell (x0 x1 x2 : Vec F S128x1024 .f32) (x3 x4 : Vec F S4096x1024 .bf16) (x5 : Vec F S1x4096 .f32) : Vec F S128x1024 .f32 :=
  View.canon [⟨rTile, k0_pay2 (View.ld x0 rTile) (View.ld x1 rTile) (View.ld x2 rTile) (View.ld x3 rStack) (View.ld x4 rStack) (View.ld x5 rBias)⟩]

/-- One whole-tile store covers the tile. -/
theorem cover_tile (p0 : Vec F S128x1024 .f32) (y : S128x1024.Idx) :
    ∃ pc ∈ ([⟨rTile, p0⟩] : List (View.Piece (Elt F) S128x1024 .f32)), y ∈ pc.1.set :=
  View.cover_of_tiled [⟨rTile, p0⟩] S128x1024.size (by rfl) y

set_option maxHeartbeats 4000000 in
/-- The kernel function on whole tiles: with the six inputs at contents `x0 … x5` and the two outputs at anything, it
    runs to the end, leaves the inputs as they were and the outputs at `newHidden` and `newCell` of the inputs. -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S4096x1024 .bf16) (harg4 : arg4.IsWhole)
    (arg5 : Memref sig .tc .vmem S4096x1024 .bf16) (harg5 : arg5.IsWhole) (arg6 : Memref sig .tc .vmem S1x4096 .f32) (harg6 : arg6.IsWhole)
    (arg7 : Memref sig .tc .vmem S128x1024 .f32) (harg7 : arg7.IsWhole) (arg8 : Memref sig .tc .vmem S128x1024 .f32) (harg8 : arg8.IsWhole)
    (x0 x1 x2 : Vec F S128x1024 .f32) (x3 x4 : Vec F S4096x1024 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (newHidden x0 x1 x2 x3 x4 x5) ∗ owns (c : Thread nD τ) arg8 fullShare (newCell x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_tile _)
  iexists _; isplitr
  swap; · iexact H7
  ipureintro
  exact View.read_writes_eq_canon _ _ _ (cover_tile _)

/-! ## The pipeline's proof data -/

/-- On core `c`: the arrays as the launch finds them; after point `t` each input's tile still at its block and the two
    outputs' tiles at `newHidden` / `newCell` of the six input blocks; nothing else is used, nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => newHidden (iblk m c 0 t) (iblk m c 1 t) (iblk m c 2 t) (iblk m c 3 t) (iblk m c 4 t) (iblk m c 5 t)
    | ⟨7, _⟩ => newCell (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = newHidden (iblk m c 0 t) (iblk m c 1 t) (iblk m c 2 t) (iblk m c 3 t) (iblk m c 4 t) (iblk m c 5 t) := by dsimp only [dats]
theorem after7 (c : Dev nD) (t : Fin cfg0.N) : (dats m 0 c).after 7 t = newCell (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d

/-! ## Every grid point meets what the pipeline asks of the body -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- At any point the inputs' tiles hold their blocks, so `sound_kernel` applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program ends, without a fault, with every
    windowed array at what the library assembles from the proof data and every other unwindowed buffer as the launch
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end and leaves all nineteen arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Region

end
-- ==== Proof.KernelIdealRegion.lean ====
/-
  The launch of the one gridded kernel of `KernelIdeal`, at any float instance.

  Before the launch the program stacks the four input-side weight matrices and the four hidden-side weight matrices
  row-wise into two [4096, 1024] arrays, narrows both, adds the paired bias vectors, and lays the four sums side by side
  as one [1, 4096] row: ten whole-array operations, none of which writes an argument.  The kernel then runs over 32 grid
  points; point `t` is handed rows 128·t … 128·t+127 of the three activations, the two weight stacks and the bias row
  whole (they are brought in once and stay), and two fresh [128, 1024] tiles for the new hidden and cell states.

  What one grid point does is two stores, each covering its whole tile with a pure function of the six blocks read
  (`newHidden`, `newCell` below; the arithmetic is the payloads of the kernel's skeleton).  From this the pipeline
  library gives the run: every execution ends, nothing faults, every argument array ends as it started, and each result
  array is what the library assembles from the tiles written back point by point (`run_main`, `frame`).
-/
import proofs.«179367_j14654428413974_2_alg».proof.Proof.Gen.KernelIdeal.Launch
import proofs.«179367_j14654428413974_2_alg».proof.Proof.Gen.KernelIdeal.Skeleton
import proofs.«179367_j14654428413974_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- What each buffer of a core holds when the kernel is launched: the start contents with the ten whole-array
    operations applied in order. -/
abbrev V (c : Dev nD) (b : Ref sig .tc) : Buf (Elt F) ((c : Thread nD τ).loc b) := StableHlo.after hostOps0 (fun b => m (c, b)) b

/-- None of the ten operations allocates anything. -/
theorem hostOps0_fresh : (hostOps0 : List (HloOp τ sig (Elt F))).Forall fun op => op.fresh = ∅ := by
  simp only [List.Forall]; repeat' constructor

/-- The program is those ten operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the launch writes argument 0: the launch finds it as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 1: the launch finds it as it was at the start. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 2: the launch finds it as it was at the start. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 3: the launch finds it as it was at the start. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 4: the launch finds it as it was at the start. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 5: the launch finds it as it was at the start. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 6: the launch finds it as it was at the start. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 7: the launch finds it as it was at the start. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 8: the launch finds it as it was at the start. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 9: the launch finds it as it was at the start. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 10: the launch finds it as it was at the start. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 11: the launch finds it as it was at the start. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 12: the launch finds it as it was at the start. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 13: the launch finds it as it was at the start. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 14: the launch finds it as it was at the start. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 15: the launch finds it as it was at the start. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 16: the launch finds it as it was at the start. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 17: the launch finds it as it was at the start. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 18: the launch finds it as it was at the start. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The blocks the grid points are handed -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's tile holds its block at every point, whether the point brought it in or an earlier one did
    (then the block index has not moved since). -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## Arguments unchanged, from the run's end state -/

/-- A run ending with every windowed array at what the library assembles and every other unwindowed buffer as the
    launch found it ends with all nineteen arguments as they started: three are input windows' arrays, sixteen are
    read only by the operations before the launch. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## One grid point -/

/-- The whole [128, 1024] tile, the whole [4096, 1024] stack, the whole [1, 4096] row: every access of the kernel
    is one of these. -/
abbrev rTile : Rect S128x1024 := Rect.unit (s := S128x1024) ![0, 0] S128x1024.size inb_S128x1024_S128x1024_0_0
abbrev rStack : Rect S4096x1024 := Rect.unit (s := S4096x1024) ![0, 0] S4096x1024.size inb_S4096x1024_S4096x1024_0_0
abbrev rBias : Rect S1x4096 := Rect.unit (s := S1x4096) ![0, 0] S1x4096.size inb_S1x4096_S1x4096_0_0

/-- The new hidden state's tile after a grid point, from the six blocks read: one store over the whole tile. -/
def newHidden (x0 x1 x2 : Vec F S128x1024 .f32) (x3 x4 : Vec F S4096x1024 .bf16) (x5 : Vec F S1x4096 .f32) : Vec F S128x1024 .f32 :=
  View.canon [⟨rTile, k0_pay3 (View.ld x0 rTile) (View.ld x1 rTile) (View.ld x2 rTile) (View.ld x3 rStack) (View.ld x4 rStack) (View.ld x5 rBias)⟩]

/-- The new cell state's tile after a grid point: one store over the whole tile. -/
def newCell (x0 x1 x2 : Vec F S128x1024 .f32) (x3 x4 : Vec F S4096x1024 .bf16) (x5 : Vec F S1x4096 .f32) : Vec F S128x1024 .f32 :=
  View.canon [⟨rTile, k0_pay2 (View.ld x0 rTile) (View.ld x1 rTile) (View.ld x2 rTile) (View.ld x3 rStack) (View.ld x4 rStack) (View.ld x5 rBias)⟩]

/-- One whole-tile store covers the tile. -/
theorem cover_tile (p0 : Vec F S128x1024 .f32) (y : S128x1024.Idx) :
    ∃ pc ∈ ([⟨rTile, p0⟩] : List (View.Piece (Elt F) S128x1024 .f32)), y ∈ pc.1.set :=
  View.cover_of_tiled [⟨rTile, p0⟩] S128x1024.size (by rfl) y

set_option maxHeartbeats 4000000 in
/-- The kernel function on whole tiles: with the six inputs at contents `x0 … x5` and the two outputs at anything, it
    runs to the end, leaves the inputs as they were and the outputs at `newHidden` and `newCell` of the inputs. -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S4096x1024 .bf16) (harg4 : arg4.IsWhole)
    (arg5 : Memref sig .tc .vmem S4096x1024 .bf16) (harg5 : arg5.IsWhole) (arg6 : Memref sig .tc .vmem S1x4096 .f32) (harg6 : arg6.IsWhole)
    (arg7 : Memref sig .tc .vmem S128x1024 .f32) (harg7 : arg7.IsWhole) (arg8 : Memref sig .tc .vmem S128x1024 .f32) (harg8 : arg8.IsWhole)
    (x0 x1 x2 : Vec F S128x1024 .f32) (x3 x4 : Vec F S4096x1024 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (newHidden x0 x1 x2 x3 x4 x5) ∗ owns (c : Thread nD τ) arg8 fullShare (newCell x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_tile _)
  iexists _; isplitr
  swap; · iexact H7
  ipureintro
  exact View.read_writes_eq_canon _ _ _ (cover_tile _)

/-! ## The pipeline's proof data -/

/-- On core `c`: the arrays as the launch finds them; after point `t` each input's tile still at its block and the two
    outputs' tiles at `newHidden` / `newCell` of the six input blocks; nothing else is used, nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => newHidden (iblk m c 0 t) (iblk m c 1 t) (iblk m c 2 t) (iblk m c 3 t) (iblk m c 4 t) (iblk m c 5 t)
    | ⟨7, _⟩ => newCell (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = newHidden (iblk m c 0 t) (iblk m c 1 t) (iblk m c 2 t) (iblk m c 3 t) (iblk m c 4 t) (iblk m c 5 t) := by dsimp only [dats]
theorem after7 (c : Dev nD) (t : Fin cfg0.N) : (dats m 0 c).after 7 t = newCell (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d

/-! ## Every grid point meets what the pipeline asks of the body -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- At any point the inputs' tiles hold their blocks, so `sound_kernel` applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program ends, without a fault, with every
    windowed array at what the library assembles from the proof data and every other unwindowed buffer as the launch
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end and leaves all nineteen arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Region

end
-- ==== Proof.LibConcat4.lean ====
/-
  Layout operations of two-dimensional arrays read at an index, for any extents:
  * four arrays stacked along the rows (axis 0), or side by side along the columns (axis 1), read at (r, c): the
    piece whose span holds the coordinate, at the coordinate less the extents of the pieces before it;
  * a vector [n] broadcast first to one row [1, n] and then down the rows to [a, n], read at (p, q): the vector at q;
  * a scalar broadcast to any shape, read anywhere: the scalar.
-/
import Idealize.ShloMosaic.Lib.Pipeline.Value
import Idealize.ShloMosaic.Lib.ValueIdx

namespace Cert.LibConcat4

open Idealize.ShloMosaic Idealize.ShloMosaic.ValueIdx

variable {α : Type}

/-- Four arrays of one width stacked along the ROWS, read at row `r`: the first whose rows reach `r`, at `r` less the
    rows of the arrays above it. -/
theorem concatenate4_rows_apply {n0 n1 n2 n3 N w : ℕ}
    (x0 : (⟨2, ![n0, w]⟩ : Shape).Idx → α) (x1 : (⟨2, ![n1, w]⟩ : Shape).Idx → α)
    (x2 : (⟨2, ![n2, w]⟩ : Shape).Idx → α) (x3 : (⟨2, ![n3, w]⟩ : Shape).Idx → α)
    (h : Shape.Concatenates [⟨2, ![n0, w]⟩, ⟨2, ![n1, w]⟩, ⟨2, ![n2, w]⟩, ⟨2, ![n3, w]⟩] ⟨2, ![N, w]⟩ 0)
    (hN : n0 + n1 + n2 + n3 = N) (r : Fin N) (i : Fin w) :
    concatenate ⟨2, ![N, w]⟩ 0
        [⟨⟨2, ![n0, w]⟩, x0⟩, ⟨⟨2, ![n1, w]⟩, x1⟩, ⟨⟨2, ![n2, w]⟩, x2⟩, ⟨⟨2, ![n3, w]⟩, x3⟩] h (ix2 r i)
      = if h0 : r.val < n0 then x0 (ix2 ⟨r.val, h0⟩ i)
        else if h1 : r.val < n0 + n1 then x1 (ix2 ⟨r.val - n0, by omega⟩ i)
        else if h2 : r.val < n0 + n1 + n2 then x2 (ix2 ⟨r.val - (n0 + n1), by omega⟩ i)
        else x3 (ix2 ⟨r.val - (n0 + n1 + n2), by have := r.isLt; omega⟩ i) := by
  have hoff : ∀ (s : ℕ) (q : Fin s), ∀ b : Fin 2, Fin.cast (rfl : 2 = 2) b ≠ (0 : Fin 2) →
      ((ix2 q i : (⟨2, ![s, w]⟩ : Shape).Idx) b).val = ((ix2 r i : (⟨2, ![N, w]⟩ : Shape).Idx) (Fin.cast rfl b)).val :=
    fun s q b hb => by
      match b with
      | ⟨0, _⟩ => exact absurd rfl hb
      | ⟨1, _⟩ => rfl
  have key := concatenate_apply_piece (t := ⟨2, ![N, w]⟩) (0 : Fin 2)
    [⟨⟨2, ![n0, w]⟩, x0⟩, ⟨⟨2, ![n1, w]⟩, x1⟩, ⟨⟨2, ![n2, w]⟩, x2⟩, ⟨⟨2, ![n3, w]⟩, x3⟩] h (ix2 r i)
  by_cases h0 : r.val < n0
  · rw [dif_pos h0]
    exact key 0 (by show (0 : ℕ) < 4; omega) ⟨2, ![n0, w]⟩ x0 rfl rfl 0 rfl
      (ix2 ⟨r.val, h0⟩ i) (hoff n0 _) (by show 0 + r.val = r.val; omega)
  rw [dif_neg h0]
  by_cases h1 : r.val < n0 + n1
  · rw [dif_pos h1]
    exact key 1 (by show (1 : ℕ) < 4; omega) ⟨2, ![n1, w]⟩ x1 rfl rfl n0
      (by show n0 + 0 = n0; omega) (ix2 ⟨r.val - n0, by omega⟩ i) (hoff n1 _)
      (by show n0 + (r.val - n0) = r.val; omega)
  rw [dif_neg h1]
  by_cases h2 : r.val < n0 + n1 + n2
  · rw [dif_pos h2]
    exact key 2 (by show (2 : ℕ) < 4; omega) ⟨2, ![n2, w]⟩ x2 rfl rfl (n0 + n1)
      (by show n0 + (n1 + 0) = n0 + n1; omega) (ix2 ⟨r.val - (n0 + n1), by omega⟩ i) (hoff n2 _)
      (by show n0 + n1 + (r.val - (n0 + n1)) = r.val; omega)
  rw [dif_neg h2]
  exact key 3 (by show (3 : ℕ) < 4; omega) ⟨2, ![n3, w]⟩ x3 rfl rfl (n0 + n1 + n2)
    (by show n0 + (n1 + (n2 + 0)) = n0 + n1 + n2; omega)
    (ix2 ⟨r.val - (n0 + n1 + n2), by have := r.isLt; omega⟩ i) (hoff n3 _)
    (by show n0 + n1 + n2 + (r.val - (n0 + n1 + n2)) = r.val; omega)

/-- Four arrays of one height put side by side along the COLUMNS, read at column `c`: the first whose columns reach
    `c`, at `c` less the columns of the arrays to its left. -/
theorem concatenate4_cols_apply {n0 n1 n2 n3 N a : ℕ}
    (x0 : (⟨2, ![a, n0]⟩ : Shape).Idx → α) (x1 : (⟨2, ![a, n1]⟩ : Shape).Idx → α)
    (x2 : (⟨2, ![a, n2]⟩ : Shape).Idx → α) (x3 : (⟨2, ![a, n3]⟩ : Shape).Idx → α)
    (h : Shape.Concatenates [⟨2, ![a, n0]⟩, ⟨2, ![a, n1]⟩, ⟨2, ![a, n2]⟩, ⟨2, ![a, n3]⟩] ⟨2, ![a, N]⟩ 1)
    (hN : n0 + n1 + n2 + n3 = N) (o : Fin a) (c : Fin N) :
    concatenate ⟨2, ![a, N]⟩ 1
        [⟨⟨2, ![a, n0]⟩, x0⟩, ⟨⟨2, ![a, n1]⟩, x1⟩, ⟨⟨2, ![a, n2]⟩, x2⟩, ⟨⟨2, ![a, n3]⟩, x3⟩] h (ix2 o c)
      = if h0 : c.val < n0 then x0 (ix2 o ⟨c.val, h0⟩)
        else if h1 : c.val < n0 + n1 then x1 (ix2 o ⟨c.val - n0, by omega⟩)
        else if h2 : c.val < n0 + n1 + n2 then x2 (ix2 o ⟨c.val - (n0 + n1), by omega⟩)
        else x3 (ix2 o ⟨c.val - (n0 + n1 + n2), by have := c.isLt; omega⟩) := by
  have hoff : ∀ (s : ℕ) (q : Fin s), ∀ b : Fin 2, Fin.cast (rfl : 2 = 2) b ≠ (1 : Fin 2) →
      ((ix2 o q : (⟨2, ![a, s]⟩ : Shape).Idx) b).val = ((ix2 o c : (⟨2, ![a, N]⟩ : Shape).Idx) (Fin.cast rfl b)).val :=
    fun s q b hb => by
      match b with
      | ⟨0, _⟩ => rfl
      | ⟨1, _⟩ => exact absurd rfl hb
  have key := concatenate_apply_piece (t := ⟨2, ![a, N]⟩) (1 : Fin 2)
    [⟨⟨2, ![a, n0]⟩, x0⟩, ⟨⟨2, ![a, n1]⟩, x1⟩, ⟨⟨2, ![a, n2]⟩, x2⟩, ⟨⟨2, ![a, n3]⟩, x3⟩] h (ix2 o c)
  by_cases h0 : c.val < n0
  · rw [dif_pos h0]
    exact key 0 (by show (0 : ℕ) < 4; omega) ⟨2, ![a, n0]⟩ x0 rfl rfl 0 rfl
      (ix2 o ⟨c.val, h0⟩) (hoff n0 _) (by show 0 + c.val = c.val; omega)
  rw [dif_neg h0]
  by_cases h1 : c.val < n0 + n1
  · rw [dif_pos h1]
    exact key 1 (by show (1 : ℕ) < 4; omega) ⟨2, ![a, n1]⟩ x1 rfl rfl n0
      (by show n0 + 0 = n0; omega) (ix2 o ⟨c.val - n0, by omega⟩) (hoff n1 _)
      (by show n0 + (c.val - n0) = c.val; omega)
  rw [dif_neg h1]
  by_cases h2 : c.val < n0 + n1 + n2
  · rw [dif_pos h2]
    exact key 2 (by show (2 : ℕ) < 4; omega) ⟨2, ![a, n2]⟩ x2 rfl rfl (n0 + n1)
      (by show n0 + (n1 + 0) = n0 + n1; omega) (ix2 o ⟨c.val - (n0 + n1), by omega⟩) (hoff n2 _)
      (by show n0 + n1 + (c.val - (n0 + n1)) = c.val; omega)
  rw [dif_neg h2]
  exact key 3 (by show (3 : ℕ) < 4; omega) ⟨2, ![a, n3]⟩ x3 rfl rfl (n0 + n1 + n2)
    (by show n0 + (n1 + (n2 + 0)) = n0 + n1 + n2; omega)
    (ix2 o ⟨c.val - (n0 + n1 + n2), by have := c.isLt; omega⟩) (hoff n3 _)
    (by show n0 + n1 + n2 + (c.val - (n0 + n1 + n2)) = c.val; omega)

/-- A vector [n] broadcast to one row [1, n], then down the rows to [a, n], reads at (p, q) the vector at q. -/
theorem broadcastInDim_vec_rows_apply {n a : ℕ} (x : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2))
    (p : Fin a) (q : Fin n) :
    broadcastInDim ⟨2, ![a, n]⟩ ![0, 1] h2 (broadcastInDim ⟨2, ![1, n]⟩ ![1] h1 x) (ix2 p q) = x (ix1 q) := by
  have hq : ∀ z : ℕ, q.val = if n = 1 then 0 else q.val := fun _ => by
    by_cases hn : n = 1
    · rw [if_pos hn]; have := q.isLt; omega
    · rw [if_neg hn]
  refine (broadcastInDim_apply _ h2 _ (ix2 p q) (ix2 (0 : Fin 1) q) (fun b => ?_)).trans
    (broadcastInDim_apply _ h1 x (ix2 (0 : Fin 1) q) (ix1 q) (fun b => ?_))
  · match b with
    | ⟨0, _⟩ => show 0 = if (1 : ℕ) = 1 then 0 else p.val; rw [if_pos rfl]
    | ⟨1, _⟩ => exact hq 0
  · match b with
    | ⟨0, _⟩ => exact hq 0

/-- A scalar broadcast to any shape reads, at every index, the scalar. -/
theorem broadcastInDim_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 (fun b => b.elim0)

end Cert.LibConcat4
-- ==== Proof.LibConcatVec4.lean ====
/-
  Four vectors laid end to end, read at a position: the piece whose span holds the position, at the position less the
  lengths of the pieces before it.
-/
import Idealize.ShloMosaic.Lib.Pipeline.Value
import Idealize.ShloMosaic.Lib.ValueIdx

namespace Cert.LibConcatVec4

open Idealize.ShloMosaic Idealize.ShloMosaic.ValueIdx

variable {α : Type}

/-- Four vectors of lengths `n0 … n3` concatenated into one of length `N`, read at `r`: the first whose span reaches
    `r`, at `r` less the lengths of the vectors before it. -/
theorem concatenate4_vec_apply {n0 n1 n2 n3 N : ℕ}
    (x0 : (⟨1, ![n0]⟩ : Shape).Idx → α) (x1 : (⟨1, ![n1]⟩ : Shape).Idx → α)
    (x2 : (⟨1, ![n2]⟩ : Shape).Idx → α) (x3 : (⟨1, ![n3]⟩ : Shape).Idx → α)
    (h : Shape.Concatenates [⟨1, ![n0]⟩, ⟨1, ![n1]⟩, ⟨1, ![n2]⟩, ⟨1, ![n3]⟩] ⟨1, ![N]⟩ 0)
    (hN : n0 + n1 + n2 + n3 = N) (r : Fin N) :
    concatenate ⟨1, ![N]⟩ 0
        [⟨⟨1, ![n0]⟩, x0⟩, ⟨⟨1, ![n1]⟩, x1⟩, ⟨⟨1, ![n2]⟩, x2⟩, ⟨⟨1, ![n3]⟩, x3⟩] h (ix1 r)
      = if h0 : r.val < n0 then x0 (ix1 ⟨r.val, h0⟩)
        else if h1 : r.val < n0 + n1 then x1 (ix1 ⟨r.val - n0, by omega⟩)
        else if h2 : r.val < n0 + n1 + n2 then x2 (ix1 ⟨r.val - (n0 + n1), by omega⟩)
        else x3 (ix1 ⟨r.val - (n0 + n1 + n2), by have := r.isLt; omega⟩) := by
  have hoff : ∀ (s : ℕ) (q : Fin s), ∀ b : Fin 1, Fin.cast (rfl : 1 = 1) b ≠ (0 : Fin 1) →
      ((ix1 q : (⟨1, ![s]⟩ : Shape).Idx) b).val = ((ix1 r : (⟨1, ![N]⟩ : Shape).Idx) (Fin.cast rfl b)).val :=
    fun s q b hb => by
      match b with
      | ⟨0, _⟩ => exact absurd rfl hb
  have key := concatenate_apply_piece (t := ⟨1, ![N]⟩) (0 : Fin 1)
    [⟨⟨1, ![n0]⟩, x0⟩, ⟨⟨1, ![n1]⟩, x1⟩, ⟨⟨1, ![n2]⟩, x2⟩, ⟨⟨1, ![n3]⟩, x3⟩] h (ix1 r)
  by_cases h0 : r.val < n0
  · rw [dif_pos h0]
    exact key 0 (by show (0 : ℕ) < 4; omega) ⟨1, ![n0]⟩ x0 rfl rfl 0 rfl
      (ix1 ⟨r.val, h0⟩) (hoff n0 _) (by show 0 + r.val = r.val; omega)
  rw [dif_neg h0]
  by_cases h1 : r.val < n0 + n1
  · rw [dif_pos h1]
    exact key 1 (by show (1 : ℕ) < 4; omega) ⟨1, ![n1]⟩ x1 rfl rfl n0
      (by show n0 + 0 = n0; omega) (ix1 ⟨r.val - n0, by omega⟩) (hoff n1 _)
      (by show n0 + (r.val - n0) = r.val; omega)
  rw [dif_neg h1]
  by_cases h2 : r.val < n0 + n1 + n2
  · rw [dif_pos h2]
    exact key 2 (by show (2 : ℕ) < 4; omega) ⟨1, ![n2]⟩ x2 rfl rfl (n0 + n1)
      (by show n0 + (n1 + 0) = n0 + n1; omega) (ix1 ⟨r.val - (n0 + n1), by omega⟩) (hoff n2 _)
      (by show n0 + n1 + (r.val - (n0 + n1)) = r.val; omega)
  rw [dif_neg h2]
  exact key 3 (by show (3 : ℕ) < 4; omega) ⟨1, ![n3]⟩ x3 rfl rfl (n0 + n1 + n2)
    (by show n0 + (n1 + (n2 + 0)) = n0 + n1 + n2; omega)
    (ix1 ⟨r.val - (n0 + n1 + n2), by have := r.isLt; omega⟩) (hoff n3 _)
    (by show n0 + n1 + n2 + (r.val - (n0 + n1 + n2)) = r.val; omega)

end Cert.LibConcatVec4
-- ==== Proof.KernelStacks.lean ====
/-
  What the kernel's three prepared operands hold when it is launched, read at an index.

  The input-side stack is the four input-side weight matrices one above the other, in gate order input, forget,
  candidate, output; its row `g·1024 + j` is row `j` of gate `g`'s matrix (narrowing changes nothing over the
  extended reals).  The hidden-side stack is the same of the hidden-side matrices.  The bias row is, gate by gate, the
  sum of the gate's two bias vectors: its entry `g·1024 + j` is `bx_g[j] + bh_g[j]`.
-/
import proofs.«179367_j14654428413974_2_alg».proof.Proof.KernelIdealRegion
import proofs.«179367_j14654428413974_2_alg».proof.Proof.LibConcat4
import proofs.«179367_j14654428413974_2_alg».proof.Proof.LibConcatVec4
import Idealize.ShloMosaic.Lib.StableHlo.Run
import Idealize.ShloMosaic.Lib.ValueLayout

noncomputable section

namespace Cert.KernelIdeal.Stacks

open Cert.KernelIdeal Cert.KernelIdeal.Gen Cert.KernelIdeal.Region
open Idealize.ShloMosaic Idealize.ShloMosaic.TcCoe Idealize.SL.Sem Idealize.ShloMosaic.StableHlo Idealize.ShloMosaic.ValueIdx
open Cert.LibConcat4 Cert.LibConcatVec4

variable (m : (ℓ : Loc nD τ sig) → Buf (Elt Ideal) ℓ)

/-! ## Four equal pieces: the piece and the place inside it -/

/-- Four [1024, 1024] matrices stacked along the rows: rows 0…1023 are the first, 1024…2047 the second, and so on. -/
theorem rows4 {α : Type} (x0 x1 x2 x3 : S1024x1024.Idx → α)
    (h : Shape.Concatenates [S1024x1024, S1024x1024, S1024x1024, S1024x1024] S4096x1024 0) (j k : Fin 1024) :
    concatenate S4096x1024 0 [⟨S1024x1024, x0⟩, ⟨S1024x1024, x1⟩, ⟨S1024x1024, x2⟩, ⟨S1024x1024, x3⟩] h (ix2 (⟨0 + j.val, by omega⟩ : Fin 4096) k) = x0 (ix2 j k)
    ∧ concatenate S4096x1024 0 [⟨S1024x1024, x0⟩, ⟨S1024x1024, x1⟩, ⟨S1024x1024, x2⟩, ⟨S1024x1024, x3⟩] h (ix2 (⟨1024 + j.val, by omega⟩ : Fin 4096) k) = x1 (ix2 j k)
    ∧ concatenate S4096x1024 0 [⟨S1024x1024, x0⟩, ⟨S1024x1024, x1⟩, ⟨S1024x1024, x2⟩, ⟨S1024x1024, x3⟩] h (ix2 (⟨2048 + j.val, by omega⟩ : Fin 4096) k) = x2 (ix2 j k)
    ∧ concatenate S4096x1024 0 [⟨S1024x1024, x0⟩, ⟨S1024x1024, x1⟩, ⟨S1024x1024, x2⟩, ⟨S1024x1024, x3⟩] h (ix2 (⟨3072 + j.val, by omega⟩ : Fin 4096) k) = x3 (ix2 j k) := by
  have hj := j.isLt
  refine ⟨?_, ?_, ?_, ?_⟩
  · rw [concatenate4_rows_apply x0 x1 x2 x3 h (by norm_num) _ k, dif_pos (show 0 + j.val < 1024 by omega)]
    exact congrArg (fun r => x0 (ix2 r k)) (Fin.ext (show 0 + j.val = j.val by omega))
  · rw [concatenate4_rows_apply x0 x1 x2 x3 h (by norm_num) _ k, dif_neg (show ¬ 1024 + j.val < 1024 by omega),
      dif_pos (show 1024 + j.val < 1024 + 1024 by omega)]
    exact congrArg (fun r => x1 (ix2 r k)) (Fin.ext (show 1024 + j.val - 1024 = j.val by omega))
  · rw [concatenate4_rows_apply x0 x1 x2 x3 h (by norm_num) _ k, dif_neg (show ¬ 2048 + j.val < 1024 by omega),
      dif_neg (show ¬ 2048 + j.val < 1024 + 1024 by omega), dif_pos (show 2048 + j.val < 1024 + 1024 + 1024 by omega)]
    exact congrArg (fun r => x2 (ix2 r k)) (Fin.ext (show 2048 + j.val - (1024 + 1024) = j.val by omega))
  · rw [concatenate4_rows_apply x0 x1 x2 x3 h (by norm_num) _ k, dif_neg (show ¬ 3072 + j.val < 1024 by omega),
      dif_neg (show ¬ 3072 + j.val < 1024 + 1024 by omega), dif_neg (show ¬ 3072 + j.val < 1024 + 1024 + 1024 by omega)]
    exact congrArg (fun r => x3 (ix2 r k)) (Fin.ext (show 3072 + j.val - (1024 + 1024 + 1024) = j.val by omega))

/-- Four [1024] vectors laid end to end: entries 0…1023 are the first, 1024…2047 the second, and so on. -/
theorem vec4 {α : Type} (x0 x1 x2 x3 : S1024.Idx → α)
    (h : Shape.Concatenates [S1024, S1024, S1024, S1024] S4096 0) (j : Fin 1024) :
    concatenate S4096 0 [⟨S1024, x0⟩, ⟨S1024, x1⟩, ⟨S1024, x2⟩, ⟨S1024, x3⟩] h (ix1 (⟨0 + j.val, by omega⟩ : Fin 4096)) = x0 (ix1 j)
    ∧ concatenate S4096 0 [⟨S1024, x0⟩, ⟨S1024, x1⟩, ⟨S1024, x2⟩, ⟨S1024, x3⟩] h (ix1 (⟨1024 + j.val, by omega⟩ : Fin 4096)) = x1 (ix1 j)
    ∧ concatenate S4096 0 [⟨S1024, x0⟩, ⟨S1024, x1⟩, ⟨S1024, x2⟩, ⟨S1024, x3⟩] h (ix1 (⟨2048 + j.val, by omega⟩ : Fin 4096)) = x2 (ix1 j)
    ∧ concatenate S4096 0 [⟨S1024, x0⟩, ⟨S1024, x1⟩, ⟨S1024, x2⟩, ⟨S1024, x3⟩] h (ix1 (⟨3072 + j.val, by omega⟩ : Fin 4096)) = x3 (ix1 j) := by
  have hj := j.isLt
  refine ⟨?_, ?_, ?_, ?_⟩
  · rw [concatenate4_vec_apply x0 x1 x2 x3 h (by norm_num) _, dif_pos (show 0 + j.val < 1024 by omega)]
    exact congrArg (fun r => x0 (ix1 r)) (Fin.ext (show 0 + j.val = j.val by omega))
  · rw [concatenate4_vec_apply x0 x1 x2 x3 h (by norm_num) _, dif_neg (show ¬ 1024 + j.val < 1024 by omega),
      dif_pos (show 1024 + j.val < 1024 + 1024 by omega)]
    exact congrArg (fun r => x1 (ix1 r)) (Fin.ext (show 1024 + j.val - 1024 = j.val by omega))
  · rw [concatenate4_vec_apply x0 x1 x2 x3 h (by norm_num) _, dif_neg (show ¬ 2048 + j.val < 1024 by omega),
      dif_neg (show ¬ 2048 + j.val < 1024 + 1024 by omega), dif_pos (show 2048 + j.val < 1024 + 1024 + 1024 by omega)]
    exact congrArg (fun r => x2 (ix1 r)) (Fin.ext (show 2048 + j.val - (1024 + 1024) = j.val by omega))
  · rw [concatenate4_vec_apply x0 x1 x2 x3 h (by norm_num) _, dif_neg (show ¬ 3072 + j.val < 1024 by omega),
      dif_neg (show ¬ 3072 + j.val < 1024 + 1024 by omega), dif_neg (show ¬ 3072 + j.val < 1024 + 1024 + 1024 by omega)]
    exact congrArg (fun r => x3 (ix1 r)) (Fin.ext (show 3072 + j.val - (1024 + 1024 + 1024) = j.val by omega))

/-! ## The three prepared operands as the launch finds them -/

/-- The input-side stack: the four input-side matrices stacked, then narrowed. -/
theorem stackIn_eq (c : Dev nD) : @Eq (FVec Ideal S4096x1024 .bf16) (V m c main_v1)
    (truncf (F := Ideal) .bf16 (concatenate S4096x1024 0 [⟨S1024x1024, (m ((c : Thread nD τ).loc main_arg3) : S1024x1024.Idx → EReal)⟩, ⟨S1024x1024, (m ((c : Thread nD τ).loc main_arg7) : S1024x1024.Idx → EReal)⟩, ⟨S1024x1024, (m ((c : Thread nD τ).loc main_arg11) : S1024x1024.Idx → EReal)⟩, ⟨S1024x1024, (m ((c : Thread nD τ).loc main_arg15) : S1024x1024.Idx → EReal)⟩]
        concatenates_S1024x1024_S1024x1024_S1024x1024_S1024x1024_S4096x1024_d0) bitsLt_bf16_f32) := by
  dsimp only [V, hostOps0]; after_results; rfl

/-- The hidden-side stack. -/
theorem stackHid_eq (c : Dev nD) : @Eq (FVec Ideal S4096x1024 .bf16) (V m c main_v3)
    (truncf (F := Ideal) .bf16 (concatenate S4096x1024 0 [⟨S1024x1024, (m ((c : Thread nD τ).loc main_arg5) : S1024x1024.Idx → EReal)⟩, ⟨S1024x1024, (m ((c : Thread nD τ).loc main_arg9) : S1024x1024.Idx → EReal)⟩, ⟨S1024x1024, (m ((c : Thread nD τ).loc main_arg13) : S1024x1024.Idx → EReal)⟩, ⟨S1024x1024, (m ((c : Thread nD τ).loc main_arg17) : S1024x1024.Idx → EReal)⟩]
        concatenates_S1024x1024_S1024x1024_S1024x1024_S1024x1024_S4096x1024_d0) bitsLt_bf16_f32) := by
  dsimp only [V, hostOps0]; after_results; rfl

/-- The bias row: the four summed bias vectors end to end, as one row. -/
theorem biasRow_eq (c : Dev nD) : @Eq (FVec Ideal S1x4096 .f32) (V m c main_v9)
    (shapeCast S1x4096 (concatenate S4096 0 [⟨S1024, addf (F := Ideal) (φ := .f32) (m ((c : Thread nD τ).loc main_arg4) : S1024.Idx → EReal) (m ((c : Thread nD τ).loc main_arg6) : S1024.Idx → EReal)⟩, ⟨S1024, addf (F := Ideal) (φ := .f32) (m ((c : Thread nD τ).loc main_arg8) : S1024.Idx → EReal) (m ((c : Thread nD τ).loc main_arg10) : S1024.Idx → EReal)⟩,
        ⟨S1024, addf (F := Ideal) (φ := .f32) (m ((c : Thread nD τ).loc main_arg12) : S1024.Idx → EReal) (m ((c : Thread nD τ).loc main_arg14) : S1024.Idx → EReal)⟩, ⟨S1024, addf (F := Ideal) (φ := .f32) (m ((c : Thread nD τ).loc main_arg16) : S1024.Idx → EReal) (m ((c : Thread nD τ).loc main_arg18) : S1024.Idx → EReal)⟩]
        concatenates_S1024_S1024_S1024_S1024_S4096_d0) shapeCasts_S4096_S1x4096) := by
  dsimp only [V, hostOps0]; after_results; rfl

/-! ## … read at an index -/

theorem stackIn_at (c : Dev nD) (j k : Fin 1024) :
    V m c main_v1 (ix2 (⟨0 + j.val, by omega⟩ : Fin 4096) k) = m ((c : Thread nD τ).loc main_arg3) (ix2 j k)
    ∧ V m c main_v1 (ix2 (⟨1024 + j.val, by omega⟩ : Fin 4096) k) = m ((c : Thread nD τ).loc main_arg7) (ix2 j k)
    ∧ V m c main_v1 (ix2 (⟨2048 + j.val, by omega⟩ : Fin 4096) k) = m ((c : Thread nD τ).loc main_arg11) (ix2 j k)
    ∧ V m c main_v1 (ix2 (⟨3072 + j.val, by omega⟩ : Fin 4096) k) = m ((c : Thread nD τ).loc main_arg15) (ix2 j k) := by
  rw [stackIn_eq]
  simp only [truncf_apply]
  exact rows4 _ _ _ _ concatenates_S1024x1024_S1024x1024_S1024x1024_S1024x1024_S4096x1024_d0 j k

theorem stackHid_at (c : Dev nD) (j k : Fin 1024) :
    V m c main_v3 (ix2 (⟨0 + j.val, by omega⟩ : Fin 4096) k) = m ((c : Thread nD τ).loc main_arg5) (ix2 j k)
    ∧ V m c main_v3 (ix2 (⟨1024 + j.val, by omega⟩ : Fin 4096) k) = m ((c : Thread nD τ).loc main_arg9) (ix2 j k)
    ∧ V m c main_v3 (ix2 (⟨2048 + j.val, by omega⟩ : Fin 4096) k) = m ((c : Thread nD τ).loc main_arg13) (ix2 j k)
    ∧ V m c main_v3 (ix2 (⟨3072 + j.val, by omega⟩ : Fin 4096) k) = m ((c : Thread nD τ).loc main_arg17) (ix2 j k) := by
  rw [stackHid_eq]
  simp only [truncf_apply]
  exact rows4 _ _ _ _ concatenates_S1024x1024_S1024x1024_S1024x1024_S1024x1024_S4096x1024_d0 j k

theorem biasRow_at (c : Dev nD) (j : Fin 1024) :
    V m c main_v9 (ix2 (0 : Fin 1) (⟨0 + j.val, by omega⟩ : Fin 4096)) = @HAdd.hAdd EReal EReal EReal instHAdd (m ((c : Thread nD τ).loc main_arg4) (ix1 j)) (m ((c : Thread nD τ).loc main_arg6) (ix1 j))
    ∧ V m c main_v9 (ix2 (0 : Fin 1) (⟨1024 + j.val, by omega⟩ : Fin 4096)) = @HAdd.hAdd EReal EReal EReal instHAdd (m ((c : Thread nD τ).loc main_arg8) (ix1 j)) (m ((c : Thread nD τ).loc main_arg10) (ix1 j))
    ∧ V m c main_v9 (ix2 (0 : Fin 1) (⟨2048 + j.val, by omega⟩ : Fin 4096)) = @HAdd.hAdd EReal EReal EReal instHAdd (m ((c : Thread nD τ).loc main_arg12) (ix1 j)) (m ((c : Thread nD τ).loc main_arg14) (ix1 j))
    ∧ V m c main_v9 (ix2 (0 : Fin 1) (⟨3072 + j.val, by omega⟩ : Fin 4096)) = @HAdd.hAdd EReal EReal EReal instHAdd (m ((c : Thread nD τ).loc main_arg16) (ix1 j)) (m ((c : Thread nD τ).loc main_arg18) (ix1 j)) := by
  rw [biasRow_eq]
  simp only [shapeCast_a_1a_apply]
  exact vec4 _ _ _ _ concatenates_S1024_S1024_S1024_S1024_S4096_d0 j

end Cert.KernelIdeal.Stacks

end
-- ==== Proof.KernelPayload.lean ====
/-
  What one grid point computes, entry by entry, over the extended reals.

  The point holds a [128, 1024] block of the input, of the previous hidden state and of the previous cell state, the
  two [4096, 1024] weight stacks whole and the [1, 4096] bias row.  Its pre-activation tile is [128, 4096]:

      S[p, c] = (Σₖ x[p,k]·Win[c,k] + Σₖ h[p,k]·Wh[c,k]) + bias[0, c],

  both products contracting the trailing axis of both operands, narrowing being the identity here.  Columns
  0…1023, 1024…2047, 2048…3071, 3072…4095 of S are the input, forget, candidate and output gates, and

      c'[p,q] = σ(S[p,1024+q])·c[p,q] + σ(S[p,q])·tanh(S[p,2048+q]),     h'[p,q] = σ(S[p,3072+q])·tanh(c'[p,q]).
-/
import proofs.«179367_j14654428413974_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The contraction record of both products: [128, 1024] against [4096, 1024] along their trailing axes. -/
abbrev D : DotDims S128x1024 S4096x1024 S128x4096 := dot_S128x1024_S4096x1024_S128x4096_1_1_0_0_n_n

theorem lhs0 (i : S128x4096.Idx) (q : D.contr.Idx) : (D.lhsIdx i q 0).val = (i 0).val := by
  unfold DotDims.lhsIdx
  rw [dif_neg (show ¬(0 : Fin S128x1024.rank) ∈ D.lhsBatch by decide), dif_pos (show (0 : Fin S128x1024.rank) ∈ D.lhsNonContracting by decide)]
  rfl
theorem lhs1 (i : S128x4096.Idx) (q : D.contr.Idx) : (D.lhsIdx i q 1).val = (q ⟨0, by decide⟩).val :=
  D.lhsIdx_val_of_single rfl i q
theorem rhs0 (i : S128x4096.Idx) (q : D.contr.Idx) : (D.rhsIdx i q 0).val = (i 1).val := by
  unfold DotDims.rhsIdx
  rw [dif_neg (show ¬(0 : Fin S4096x1024.rank) ∈ D.rhsBatch by decide), dif_pos (show (0 : Fin S4096x1024.rank) ∈ D.rhsNonContracting by decide)]
  rfl
theorem rhs1 (i : S128x4096.Idx) (q : D.contr.Idx) : (D.rhsIdx i q 1).val = (q ⟨0, by decide⟩).val :=
  D.rhsIdx_val_of_single rfl i q

/-- A product into a zero accumulator, at (p, c): row p of the left operand against row c of the right. -/
theorem matmul_at (l : FVec Ideal S128x1024 .bf16) (r : FVec Ideal S4096x1024 .bf16) (p : Fin 128) (c : Fin 4096) :
    matmul D none l r (constant (F := Ideal) S128x4096 .f32 0x00000000#32) (ix2 p c)
      = ∑ k : Fin 1024, l (ix2 p k) * r (ix2 c k) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 p c) ((contrEquiv1 D 1024 rfl rfl).symm k) = ix2 p k := funext fun a => Fin.ext (by
    match a with
    | ⟨0, _⟩ => exact lhs0 _ _
    | ⟨1, _⟩ => exact (lhs1 _ _).trans hk)
  have er : D.rhsIdx (ix2 p c) ((contrEquiv1 D 1024 rfl rfl).symm k) = ix2 c k := funext fun a => Fin.ext (by
    match a with
    | ⟨0, _⟩ => exact rhs0 _ _
    | ⟨1, _⟩ => exact (rhs1 _ _).trans hk)
  rw [el, er]

/-- The bias row broadcast down the 128 rows, at (p, c): the row at c. -/
theorem bias_at (v : FVec Ideal S1x4096 .f32) (p : Fin 128) (c : Fin 4096) :
    broadcastTo S128x4096 v broadcasts_S1x4096_S128x4096 (ix2 p c) = v (ix2 (0 : Fin 1) c) :=
  broadcastTo_apply v broadcasts_S1x4096_S128x4096 (ix2 p c) (ix2 (0 : Fin 1) c) (fun a => by
    match a with
    | ⟨0, _⟩ => show (0 : ℕ) = if (1 : ℕ) = 1 then 0 else _; rw [if_pos rfl]
    | ⟨1, _⟩ => show c.val = if (4096 : ℕ) = 1 then 0 else c.val; rw [if_neg (by decide)])

/-- The pre-activation tile at (p, c). -/
theorem pay1_at (v0 v2 : FVec Ideal S128x1024 .f32) (v5 v8 : FVec Ideal S4096x1024 .bf16) (v12 : FVec Ideal S1x4096 .f32)
    (p : Fin 128) (c : Fin 4096) :
    k0_pay1 (F := Ideal) v0 v2 v5 v8 v12 (ix2 p c)
      = (∑ k : Fin 1024, v0 (ix2 p k) * v5 (ix2 c k) + ∑ k : Fin 1024, v2 (ix2 p k) * v8 (ix2 c k)) + v12 (ix2 (0 : Fin 1) c) := by
  unfold k0_pay1
  rw [shapeCast_self, shapeCast_self, shapeCast_self]
  show (matmul D none (truncf .bf16 v0 bitsLt_bf16_f32) v5 (constant (F := Ideal) S128x4096 .f32 0x00000000#32) (ix2 p c)
      + matmul D none (truncf .bf16 v2 bitsLt_bf16_f32) v8 (constant (F := Ideal) S128x4096 .f32 0x00000000#32) (ix2 p c))
      + broadcastTo S128x4096 v12 broadcasts_S1x4096_S128x4096 (ix2 p c) = _
  rw [matmul_at, matmul_at, bias_at]
  rfl

/-- A [128, 1024] column band of the pre-activation tile starting at column `o`, at (p, q): the tile at (p, o + q). -/
theorem band_at (S : FVec Ideal S128x4096 .f32) (o : ℕ) (h : S128x4096.Slices ![0, o] S128x1024) (p : Fin 128) (q : Fin 1024)
    (ho : o + q.val < 4096) :
    extractStridedSlice S128x1024 ![0, o] S h (ix2 p q) = S (ix2 p ⟨o + q.val, ho⟩) :=
  extractStridedSlice_apply ![0, o] S h (ix2 p q) (ix2 p ⟨o + q.val, ho⟩) (fun a => by
    match a with
    | ⟨0, _⟩ => show p.val = 0 + p.val; omega
    | ⟨1, _⟩ => rfl)

/-- The new cell state's tile at (p, q), over the pre-activation tile. -/
theorem pay2_at (v0 v2 v4 : FVec Ideal S128x1024 .f32) (v5 v8 : FVec Ideal S4096x1024 .bf16) (v12 : FVec Ideal S1x4096 .f32)
    (p : Fin 128) (q : Fin 1024) :
    k0_pay2 (F := Ideal) v0 v2 v4 v5 v8 v12 (ix2 p q)
      = Ideal.logistic (k0_pay1 (F := Ideal) v0 v2 v5 v8 v12 (ix2 p ⟨1024 + q.val, by omega⟩)) * v4 (ix2 p q)
        + Ideal.logistic (k0_pay1 (F := Ideal) v0 v2 v5 v8 v12 (ix2 p ⟨0 + q.val, by omega⟩))
          * Ideal.tanh (k0_pay1 (F := Ideal) v0 v2 v5 v8 v12 (ix2 p ⟨2048 + q.val, by omega⟩)) := by
  unfold k0_pay2
  generalize k0_pay1 (F := Ideal) v0 v2 v5 v8 v12 = S
  show Ideal.logistic (extractStridedSlice S128x1024 ![0, 1024] S slices_S128x4096_o0_1024_S128x1024 (ix2 p q)) * v4 (ix2 p q)
      + Ideal.logistic (extractStridedSlice S128x1024 ![0, 0] S slices_S128x4096_o0_0_S128x1024 (ix2 p q))
        * Ideal.tanh (extractStridedSlice S128x1024 ![0, 2048] S slices_S128x4096_o0_2048_S128x1024 (ix2 p q)) = _
  rw [band_at S 1024 _ p q (by omega), band_at S 0 _ p q (by omega), band_at S 2048 _ p q (by omega)]

/-- The new hidden state's tile at (p, q), over the pre-activation tile and the new cell state's tile. -/
theorem pay3_at (v0 v2 v4 : FVec Ideal S128x1024 .f32) (v5 v8 : FVec Ideal S4096x1024 .bf16) (v12 : FVec Ideal S1x4096 .f32)
    (p : Fin 128) (q : Fin 1024) :
    k0_pay3 (F := Ideal) v0 v2 v4 v5 v8 v12 (ix2 p q)
      = Ideal.logistic (k0_pay1 (F := Ideal) v0 v2 v5 v8 v12 (ix2 p ⟨3072 + q.val, by omega⟩))
        * Ideal.tanh (k0_pay2 (F := Ideal) v0 v2 v4 v5 v8 v12 (ix2 p q)) := by
  unfold k0_pay3
  generalize k0_pay1 (F := Ideal) v0 v2 v5 v8 v12 = S
  generalize k0_pay2 (F := Ideal) v0 v2 v4 v5 v8 v12 = C
  show Ideal.logistic (extractStridedSlice S128x1024 ![0, 3072] S slices_S128x4096_o0_3072_S128x1024 (ix2 p q)) * Ideal.tanh (C (ix2 p q)) = _
  rw [band_at S 3072 _ p q (by omega)]

end Cert.KernelIdeal.Payload

end
-- ==== Proof.LstmCell.lean ====
/-
  One step of an LSTM cell on a batch of 4096 rows with 1024 input and 1024 hidden features, over the extended reals.

  Each of the four gates (input, forget, candidate, output) has an input-side linear layer and a hidden-side linear
  layer, each a weight matrix applied as `x · Wᵀ` plus a bias vector.  At batch row `b` and feature `j` the gate's
  pre-activation is

      (Σₖ x[b,k]·Wx[j,k] + bx[j]) + (Σₖ h[b,k]·Wh[j,k] + bh[j]),

  and the step is

      c' = σ(f)·c + σ(i)·tanh(g),     h' = σ(o)·tanh(c'),

  with σ the logistic function `1 / (1 + e⁻ˣ)`.  A fused evaluation adds the two matrix products first and the two
  biases first: `(Σ + Σ) + (bx + bh)`.  The two groupings are one number, because addition of extended reals is
  commutative and associative (`gate_fused`); no finiteness is needed.
-/
import Idealize.ShloMosaic.PureOps.Ideal
import Idealize.ShloMosaic.Lib.ValueIdx

noncomputable section

namespace Cert.LstmCell

open Idealize.ShloMosaic Idealize.ShloMosaic.ValueIdx

/-- A [4096, 1024] batch of activations, a [1024, 1024] weight matrix, a [1024] bias. -/
abbrev Act : Type := (⟨2, ![4096, 1024]⟩ : Shape).Idx → EReal
abbrev Mat : Type := (⟨2, ![1024, 1024]⟩ : Shape).Idx → EReal
abbrev Bias : Type := (⟨1, ![1024]⟩ : Shape).Idx → EReal

/-- Row `b` of `x` against row `j` of `W`: the (b, j) entry of `x · Wᵀ`. -/
def lin (x : Act) (W : Mat) (b : Fin 4096) (j : Fin 1024) : EReal :=
  ∑ k : Fin 1024, x (ix2 b k) * W (ix2 j k)

/-- A gate's pre-activation: the input-side layer plus the hidden-side layer, each with its own bias. -/
def gate (x h : Act) (Wx : Mat) (bx : Bias) (Wh : Mat) (bh : Bias) (b : Fin 4096) (j : Fin 1024) : EReal :=
  (lin x Wx b j + bx (ix1 j)) + (lin h Wh b j + bh (ix1 j))

/-- Adding the two products first and the two biases first gives the same pre-activation. -/
theorem gate_fused (x h : Act) (Wx : Mat) (bx : Bias) (Wh : Mat) (bh : Bias) (b : Fin 4096) (j : Fin 1024) :
    (lin x Wx b j + lin h Wh b j) + (bx (ix1 j) + bh (ix1 j)) = gate x h Wx bx Wh bh b j :=
  add_add_add_comm _ _ _ _

/-- The nineteen arrays of one step, in the order the programs take them: the input, the previous hidden and cell
    states, then for each gate (input, forget, candidate, output) the input-side weights and bias and the hidden-side
    weights and bias. -/
structure Args where
  x : Act
  h : Act
  c : Act
  Wxi : Mat
  bxi : Bias
  Whi : Mat
  bhi : Bias
  Wxf : Mat
  bxf : Bias
  Whf : Mat
  bhf : Bias
  Wxg : Mat
  bxg : Bias
  Whg : Mat
  bhg : Bias
  Wxo : Mat
  bxo : Bias
  Who : Mat
  bho : Bias

/-- The new cell state at (b, j). -/
def cellAt (A : Args) (b : Fin 4096) (j : Fin 1024) : EReal :=
  Ideal.logistic (gate A.x A.h A.Wxf A.bxf A.Whf A.bhf b j) * A.c (ix2 b j)
    + Ideal.logistic (gate A.x A.h A.Wxi A.bxi A.Whi A.bhi b j) * Ideal.tanh (gate A.x A.h A.Wxg A.bxg A.Whg A.bhg b j)

/-- The new hidden state at (b, j). -/
def hiddenAt (A : Args) (b : Fin 4096) (j : Fin 1024) : EReal :=
  Ideal.logistic (gate A.x A.h A.Wxo A.bxo A.Who A.bho b j) * Ideal.tanh (cellAt A b j)

/-- The two results as whole arrays. -/
def cell (A : Args) : Act := fun i => cellAt A (i 0) (i 1)
def hidden (A : Args) : Act := fun i => hiddenAt A (i 0) (i 1)

theorem cell_ix2 (A : Args) (b : Fin 4096) (j : Fin 1024) : cell A (ix2 b j) = cellAt A b j := rfl
theorem hidden_ix2 (A : Args) (b : Fin 4096) (j : Fin 1024) : hidden A (ix2 b j) = hiddenAt A b j := rfl

end Cert.LstmCell

end
-- ==== Proof.KernelValue.lean ====
/-
  What the kernel's two result arrays hold after the run: the LSTM step of `LstmCell`.

  Grid point `t` owns batch rows 128·t … 128·t+127.  Its blocks of the three activations are those rows; its blocks of
  the two weight stacks and of the bias row are the whole arrays.  So the tile it writes back for a result is, at
  (p, q), the fused step at batch row 128·t+p and feature q (`fusedCellAt`, `fusedHiddenAt`: the products of both
  sides added first, then the summed biases).  The 32 tiles cover the [4096, 1024] result, so the whole array is the
  fused step (`finalHidden`, `finalCell`).  Reading the stacks gate by gate and regrouping the sum
  (`LstmCell.gate_fused`) turns the fused step into the step as the reference spells it (`fused_eq`).
-/
import proofs.«179367_j14654428413974_2_alg».proof.Proof.KernelStacks
import proofs.«179367_j14654428413974_2_alg».proof.Proof.KernelPayload
import proofs.«179367_j14654428413974_2_alg».proof.Proof.LstmCell
import Idealize.ShloMosaic.Lib.Pipeline.Value

set_option maxRecDepth 16384

noncomputable section

namespace Cert.KernelIdeal.Result

open Cert.KernelIdeal Cert.KernelIdeal.Gen Cert.KernelIdeal.Region Cert.KernelIdeal.Payload Cert.KernelIdeal.Stacks
open Idealize.ShloMosaic Idealize.ShloMosaic.TcCoe Idealize.SL.Sem Idealize.ShloMosaic.ValueIdx
open Idealize.ShloMosaic.Pipeline (Dat)
open Cert.LstmCell

/-! ## The fused step over the arrays the kernel is launched on -/

/-- The fused pre-activation at batch row `b` and stacked column `c`. -/
def pre (X H : S4096x1024.Idx → EReal) (Win Wh : S4096x1024.Idx → EReal) (B : S1x4096.Idx → EReal) (b c : Fin 4096) : EReal :=
  (∑ k : Fin 1024, X (ix2 b k) * Win (ix2 c k) + ∑ k : Fin 1024, H (ix2 b k) * Wh (ix2 c k)) + B (ix2 (0 : Fin 1) c)

def fusedCellAt (X H C : S4096x1024.Idx → EReal) (Win Wh : S4096x1024.Idx → EReal) (B : S1x4096.Idx → EReal)
    (b : Fin 4096) (q : Fin 1024) : EReal :=
  Ideal.logistic (pre X H Win Wh B b ⟨1024 + q.val, by omega⟩) * C (ix2 b q)
    + Ideal.logistic (pre X H Win Wh B b ⟨0 + q.val, by omega⟩) * Ideal.tanh (pre X H Win Wh B b ⟨2048 + q.val, by omega⟩)

def fusedHiddenAt (X H C : S4096x1024.Idx → EReal) (Win Wh : S4096x1024.Idx → EReal) (B : S1x4096.Idx → EReal)
    (b : Fin 4096) (q : Fin 1024) : EReal :=
  Ideal.logistic (pre X H Win Wh B b ⟨3072 + q.val, by omega⟩) * Ideal.tanh (fusedCellAt X H C Win Wh B b q)

def fusedCell (X H C : S4096x1024.Idx → EReal) (Win Wh : S4096x1024.Idx → EReal) (B : S1x4096.Idx → EReal) :
    S4096x1024.Idx → EReal := fun i => fusedCellAt X H C Win Wh B (i 0) (i 1)

def fusedHidden (X H C : S4096x1024.Idx → EReal) (Win Wh : S4096x1024.Idx → EReal) (B : S1x4096.Idx → EReal) :
    S4096x1024.Idx → EReal := fun i => fusedHiddenAt X H C Win Wh B (i 0) (i 1)

/-! ## One grid point's tiles, from blocks that are rows `r p` of the activations and the whole stacks -/

section Point

variable (X H C : S4096x1024.Idx → EReal) (Win Wh : S4096x1024.Idx → EReal) (B : S1x4096.Idx → EReal)
  (X0 X1 X2 : FVec Ideal S128x1024 .f32) (X3 X4 : FVec Ideal S4096x1024 .bf16) (X5 : FVec Ideal S1x4096 .f32)
  (r : Fin 128 → Fin 4096)
  (h0 : ∀ p k, X0 (ix2 p k) = X (ix2 (r p) k)) (h1 : ∀ p k, X1 (ix2 p k) = H (ix2 (r p) k))
  (h2 : ∀ p k, X2 (ix2 p k) = C (ix2 (r p) k))
  (h3 : ∀ c k, X3 (ix2 c k) = Win (ix2 c k)) (h4 : ∀ c k, X4 (ix2 c k) = Wh (ix2 c k))
  (h5 : ∀ c, X5 (ix2 (0 : Fin 1) c) = B (ix2 (0 : Fin 1) c))

include h0 h1 h3 h4 h5 in
theorem pre_point (p : Fin 128) (c : Fin 4096) :
    k0_pay1 (F := Ideal) X0 X1 X3 X4 X5 (ix2 p c) = pre X H Win Wh B (r p) c := by
  rw [pay1_at]
  simp only [h0, h1, h3, h4, h5]
  rfl

include h0 h1 h2 h3 h4 h5 in
theorem cell_point (y : S128x1024.Idx) :
    k0_pay2 (F := Ideal) X0 X1 X2 X3 X4 X5 y = fusedCellAt X H C Win Wh B (r (y 0)) (y 1) := by
  obtain ⟨p, q, rfl⟩ : ∃ (p : Fin 128) (q : Fin 1024), y = ix2 p q := ⟨y 0, y 1, eq_ix2 y⟩
  rw [pay2_at, pre_point X H Win Wh B X0 X1 X3 X4 X5 r h0 h1 h3 h4 h5, pre_point X H Win Wh B X0 X1 X3 X4 X5 r h0 h1 h3 h4 h5,
    pre_point X H Win Wh B X0 X1 X3 X4 X5 r h0 h1 h3 h4 h5, h2]
  rfl

include h0 h1 h2 h3 h4 h5 in
theorem hidden_point (y : S128x1024.Idx) :
    k0_pay3 (F := Ideal) X0 X1 X2 X3 X4 X5 y = fusedHiddenAt X H C Win Wh B (r (y 0)) (y 1) := by
  obtain ⟨p, q, rfl⟩ : ∃ (p : Fin 128) (q : Fin 1024), y = ix2 p q := ⟨y 0, y 1, eq_ix2 y⟩
  rw [pay3_at, pre_point X H Win Wh B X0 X1 X3 X4 X5 r h0 h1 h3 h4 h5,
    cell_point X H C Win Wh B X0 X1 X2 X3 X4 X5 r h0 h1 h2 h3 h4 h5]
  rfl

end Point

variable (m : (ℓ : Loc nD τ sig) → Buf (Elt Ideal) ℓ) (ρ : Dev nD → PrngReg)

/-! ## The blocks a grid point is handed -/

/-- The index maps over the grid: the activations' and the results' windows step down the rows with the point, the
    stacks' and the bias row's stay put. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The batch row that row `p` of point `t`'s tile is. -/
def row (t : Fin cfg0.N) (p : Fin 128) : Fin 4096 :=
  ⟨t.val * 128 + p.val, by have := lt_of_lt_of_eq t.isLt (show cfg0.N = 32 from N_0); have := p.isLt; omega⟩

theorem blk0_at (c : Dev nD) (t : Fin cfg0.N) (p : Fin 128) (k : Fin 1024) :
    iblk m c 0 t (ix2 p k) = V m c main_arg0 (ix2 (row t p) k) := by
  show V m c main_arg0 (((cfg0.win 0).blk t).view.emb (ix2 p k)) = _
  refine congrArg (V m c main_arg0) (funext fun a => Fin.ext ?_)
  obtain ⟨e0, e1, -⟩ := idx_rows t
  match a with
  | ⟨0, _⟩ => show win0_0.index t (0 : Fin 2) * 128 + 1 * p.val = t.val * 128 + p.val; rw [e0]; omega
  | ⟨1, _⟩ => show win0_0.index t (1 : Fin 2) * 1024 + 1 * k.val = k.val; rw [e1]; omega

theorem blk1_at (c : Dev nD) (t : Fin cfg0.N) (p : Fin 128) (k : Fin 1024) :
    iblk m c 1 t (ix2 p k) = V m c main_arg1 (ix2 (row t p) k) := by
  show V m c main_arg1 (((cfg0.win 1).blk t).view.emb (ix2 p k)) = _
  refine congrArg (V m c main_arg1) (funext fun a => Fin.ext ?_)
  obtain ⟨-, -, e0, e1, -⟩ := idx_rows t
  match a with
  | ⟨0, _⟩ => show win0_1.index t (0 : Fin 2) * 128 + 1 * p.val = t.val * 128 + p.val; rw [e0]; omega
  | ⟨1, _⟩ => show win0_1.index t (1 : Fin 2) * 1024 + 1 * k.val = k.val; rw [e1]; omega

theorem blk2_at (c : Dev nD) (t : Fin cfg0.N) (p : Fin 128) (k : Fin 1024) :
    iblk m c 2 t (ix2 p k) = V m c main_arg2 (ix2 (row t p) k) := by
  show V m c main_arg2 (((cfg0.win 2).blk t).view.emb (ix2 p k)) = _
  refine congrArg (V m c main_arg2) (funext fun a => Fin.ext ?_)
  obtain ⟨-, -, -, -, e0, e1, -⟩ := idx_rows t
  match a with
  | ⟨0, _⟩ => show win0_2.index t (0 : Fin 2) * 128 + 1 * p.val = t.val * 128 + p.val; rw [e0]; omega
  | ⟨1, _⟩ => show win0_2.index t (1 : Fin 2) * 1024 + 1 * k.val = k.val; rw [e1]; omega

theorem blk3_at (c : Dev nD) (t : Fin cfg0.N) (r : Fin 4096) (k : Fin 1024) :
    iblk m c 3 t (ix2 r k) = V m c main_v1 (ix2 r k) := by
  show V m c main_v1 (((cfg0.win 3).blk t).view.emb (ix2 r k)) = _
  refine congrArg (V m c main_v1) (funext fun a => Fin.ext ?_)
  obtain ⟨e0, e1, -⟩ := idx_whole t
  match a with
  | ⟨0, _⟩ => show win0_3.index t (0 : Fin 2) * 4096 + 1 * r.val = r.val; rw [e0]; omega
  | ⟨1, _⟩ => show win0_3.index t (1 : Fin 2) * 1024 + 1 * k.val = k.val; rw [e1]; omega

theorem blk4_at (c : Dev nD) (t : Fin cfg0.N) (r : Fin 4096) (k : Fin 1024) :
    iblk m c 4 t (ix2 r k) = V m c main_v3 (ix2 r k) := by
  show V m c main_v3 (((cfg0.win 4).blk t).view.emb (ix2 r k)) = _
  refine congrArg (V m c main_v3) (funext fun a => Fin.ext ?_)
  obtain ⟨-, -, e0, e1, -⟩ := idx_whole t
  match a with
  | ⟨0, _⟩ => show win0_4.index t (0 : Fin 2) * 4096 + 1 * r.val = r.val; rw [e0]; omega
  | ⟨1, _⟩ => show win0_4.index t (1 : Fin 2) * 1024 + 1 * k.val = k.val; rw [e1]; omega

theorem blk5_at (c : Dev nD) (t : Fin cfg0.N) (r : Fin 4096) :
    iblk m c 5 t (ix2 (0 : Fin 1) r) = V m c main_v9 (ix2 (0 : Fin 1) r) := by
  show V m c main_v9 (((cfg0.win 5).blk t).view.emb (ix2 (0 : Fin 1) r)) = _
  refine congrArg (V m c main_v9) (funext fun a => Fin.ext ?_)
  obtain ⟨-, -, -, -, e0, e1⟩ := idx_whole t
  match a with
  | ⟨0, _⟩ => show win0_5.index t (0 : Fin 2) * 1 + 1 * 0 = 0; rw [e0]
  | ⟨1, _⟩ => show win0_5.index t (1 : Fin 2) * 4096 + 1 * r.val = r.val; rw [e1]; omega

/-! ## What a grid point writes back -/

theorem hz : (![0, 0] : Fin 2 → Nat) = fun _ => 0 := funext fun a => by fin_cases a <;> rfl

/-- The two results over the arrays as the launch finds them. -/
abbrev launchHidden (c : Dev nD) : S4096x1024.Idx → EReal := fusedHidden (V m c main_arg0) (V m c main_arg1) (V m c main_arg2) (V m c main_v1) (V m c main_v3) (V m c main_v9)
abbrev launchCell (c : Dev nD) : S4096x1024.Idx → EReal := fusedCell (V m c main_arg0) (V m c main_arg1) (V m c main_arg2) (V m c main_v1) (V m c main_v3) (V m c main_v9)

/-- An element of point `t`'s block of a result sits at batch row 128·t + its row. -/
theorem emb6 (t : Fin cfg0.N) (y : S128x1024.Idx) :
    ((cfg0.win 6).blk t).view.emb y = ix2 (row t (y 0)) (y 1) := funext fun a => Fin.ext (by
  obtain ⟨-, -, -, -, -, -, e0, e1, -⟩ := idx_rows t
  match a with
  | ⟨0, _⟩ => show win0_6.index t (0 : Fin 2) * 128 + 1 * (y 0).val = t.val * 128 + (y 0).val; rw [e0]; omega
  | ⟨1, _⟩ => show win0_6.index t (1 : Fin 2) * 1024 + 1 * (y 1).val = (y 1).val; rw [e1]; omega)

theorem emb7 (t : Fin cfg0.N) (y : S128x1024.Idx) :
    ((cfg0.win 7).blk t).view.emb y = ix2 (row t (y 0)) (y 1) := funext fun a => Fin.ext (by
  obtain ⟨-, -, -, -, -, -, -, -, e0, e1⟩ := idx_rows t
  match a with
  | ⟨0, _⟩ => show win0_7.index t (0 : Fin 2) * 128 + 1 * (y 0).val = t.val * 128 + (y 0).val; rw [e0]; omega
  | ⟨1, _⟩ => show win0_7.index t (1 : Fin 2) * 1024 + 1 * (y 1).val = (y 1).val; rw [e1]; omega)

/-- Point `t` writes back, for the new hidden state, block `t` of the fused step's hidden state. -/
theorem flushedHidden (c : Dev nD) (t : Fin cfg0.N) :
    (dats m 0 c).flushed 6 t = ((cfg0.win 6).blk t).view.read (Elt Ideal) (launchHidden m c) := by
  show (cfg0.win 6).cut (grid0.coords t) ((dats m 0 c).after 6 t) = _
  rw [after6]
  unfold newHidden
  rw [View.canon_unit_zero hz]
  simp only [View.ld_unit_zero (S := S128x1024) hz, View.ld_unit_zero (S := S4096x1024) hz, View.ld_unit_zero (S := S1x4096) hz]
  funext y
  show k0_pay3 (F := Ideal) (iblk m c 0 t) (iblk m c 1 t) (iblk m c 2 t) (iblk m c 3 t) (iblk m c 4 t) (iblk m c 5 t) y = launchHidden m c (((cfg0.win 6).blk t).view.emb y)
  rw [emb6 t y]
  exact hidden_point (V m c main_arg0) (V m c main_arg1) (V m c main_arg2) (V m c main_v1) (V m c main_v3) (V m c main_v9) (iblk m c 0 t) (iblk m c 1 t) (iblk m c 2 t) (iblk m c 3 t) (iblk m c 4 t) (iblk m c 5 t) (row t)
    (blk0_at m c t) (blk1_at m c t) (blk2_at m c t) (blk3_at m c t) (blk4_at m c t) (blk5_at m c t) y

/-- Point `t` writes back, for the new cell state, block `t` of the fused step's cell state. -/
theorem flushedCell (c : Dev nD) (t : Fin cfg0.N) :
    (dats m 0 c).flushed 7 t = ((cfg0.win 7).blk t).view.read (Elt Ideal) (launchCell m c) := by
  show (cfg0.win 7).cut (grid0.coords t) ((dats m 0 c).after 7 t) = _
  rw [after7]
  unfold newCell
  rw [View.canon_unit_zero hz]
  simp only [View.ld_unit_zero (S := S128x1024) hz, View.ld_unit_zero (S := S4096x1024) hz, View.ld_unit_zero (S := S1x4096) hz]
  funext y
  show k0_pay2 (F := Ideal) (iblk m c 0 t) (iblk m c 1 t) (iblk m c 2 t) (iblk m c 3 t) (iblk m c 4 t) (iblk m c 5 t) y = launchCell m c (((cfg0.win 7).blk t).view.emb y)
  rw [emb7 t y]
  exact cell_point (V m c main_arg0) (V m c main_arg1) (V m c main_arg2) (V m c main_v1) (V m c main_v3) (V m c main_v9) (iblk m c 0 t) (iblk m c 1 t) (iblk m c 2 t) (iblk m c 3 t) (iblk m c 4 t) (iblk m c 5 t) (row t)
    (blk0_at m c t) (blk1_at m c t) (blk2_at m c t) (blk3_at m c t) (blk4_at m c t) (blk5_at m c t) y

/-! ## The 32 blocks cover a result -/

theorem mem_blk6 (t : Fin cfg0.N) (i : S4096x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v10_0).slice (win0_6.rect t)).set ↔ _
  rw [View.set_slice_whole, Rect.mem_set_unit]
  exact Iff.rfl

theorem mem_blk7 (t : Fin cfg0.N) (i : S4096x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v10_1).slice (win0_7.rect t)).set ↔ _
  rw [View.set_slice_whole, Rect.mem_set_unit]
  exact Iff.rfl

/-- Batch row `b` is in the block of point `b / 128`. -/
theorem cover6 (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  have hN : cfg0.N = 32 := N_0
  have ht : (i 0).val / 128 < cfg0.N := by rw [hN]; omega
  obtain ⟨-, -, -, -, -, -, e0, e1, -⟩ := idx_rows ⟨(i 0).val / 128, ht⟩
  refine ⟨⟨(i 0).val / 128, ht⟩, flush0_6 _, ?_⟩
  rw [mem_blk6]
  intro a
  match a with
  | ⟨0, _⟩ =>
    show win0_6.index ⟨(i 0).val / 128, ht⟩ (0 : Fin 2) * 128 ≤ (i 0).val ∧ (i 0).val < win0_6.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_6.index ⟨(i 0).val / 128, ht⟩ (1 : Fin 2) * 1024 ≤ (i 1).val ∧ (i 1).val < win0_6.index ⟨(i 0).val / 128, ht⟩ (1 : Fin 2) * 1024 + 1024
    rw [e1]; omega

theorem cover7 (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  have hN : cfg0.N = 32 := N_0
  have ht : (i 0).val / 128 < cfg0.N := by rw [hN]; omega
  obtain ⟨-, -, -, -, -, -, -, -, e0, e1⟩ := idx_rows ⟨(i 0).val / 128, ht⟩
  refine ⟨⟨(i 0).val / 128, ht⟩, flush0_7 _, ?_⟩
  rw [mem_blk7]
  intro a
  match a with
  | ⟨0, _⟩ =>
    show win0_7.index ⟨(i 0).val / 128, ht⟩ (0 : Fin 2) * 128 ≤ (i 0).val ∧ (i 0).val < win0_7.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_7.index ⟨(i 0).val / 128, ht⟩ (1 : Fin 2) * 1024 ≤ (i 1).val ∧ (i 1).val < win0_7.index ⟨(i 0).val / 128, ht⟩ (1 : Fin 2) * 1024 + 1024
    rw [e1]; omega

/-- After the run the new hidden state's array is the fused step's hidden state, whole. -/
theorem finalHidden (c : Dev nD) : (dats m 0 c).arrAt 6 cfg0.N = launchHidden m c :=
  (dats m 0 c).arrAt_eq_of_cover 6 (launchHidden m c) (fun t _ => flushedHidden m c t) cover6

theorem finalCell (c : Dev nD) : (dats m 0 c).arrAt 7 cfg0.N = launchCell m c :=
  (dats m 0 c).arrAt_eq_of_cover 7 (launchCell m c) (fun t _ => flushedCell m c t) cover7

/-! ## The fused step is the step -/

/-- The nineteen arguments on core `c`, as the step's arguments. -/
abbrev args (c : Dev nD) : Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18)⟩

/-- The fused pre-activation at stacked column `g·1024 + j` is gate `g`'s pre-activation at `j`. -/
theorem pre_gates (c : Dev nD) (b : Fin 4096) (j : Fin 1024) :
    pre (V m c main_arg0) (V m c main_arg1) (V m c main_v1) (V m c main_v3) (V m c main_v9) b ⟨0 + j.val, by omega⟩
        = gate (args m c).x (args m c).h (args m c).Wxi (args m c).bxi (args m c).Whi (args m c).bhi b j
    ∧ pre (V m c main_arg0) (V m c main_arg1) (V m c main_v1) (V m c main_v3) (V m c main_v9) b ⟨1024 + j.val, by omega⟩
        = gate (args m c).x (args m c).h (args m c).Wxf (args m c).bxf (args m c).Whf (args m c).bhf b j
    ∧ pre (V m c main_arg0) (V m c main_arg1) (V m c main_v1) (V m c main_v3) (V m c main_v9) b ⟨2048 + j.val, by omega⟩
        = gate (args m c).x (args m c).h (args m c).Wxg (args m c).bxg (args m c).Whg (args m c).bhg b j
    ∧ pre (V m c main_arg0) (V m c main_arg1) (V m c main_v1) (V m c main_v3) (V m c main_v9) b ⟨3072 + j.val, by omega⟩
        = gate (args m c).x (args m c).h (args m c).Wxo (args m c).bxo (args m c).Who (args m c).bho b j := by
  have si := fun k => stackIn_at m c j k
  have sh := fun k => stackHid_at m c j k
  obtain ⟨b0, b1, b2, b3⟩ := biasRow_at m c j
  unfold pre
  rw [V_main_arg0, V_main_arg1]
  refine ⟨?_, ?_, ?_, ?_⟩
  · simp only [fun k => (si k).1, fun k => (sh k).1, b0]
    exact gate_fused _ _ _ _ _ _ b j
  · simp only [fun k => (si k).2.1, fun k => (sh k).2.1, b1]
    exact gate_fused _ _ _ _ _ _ b j
  · simp only [fun k => (si k).2.2.1, fun k => (sh k).2.2.1, b2]
    exact gate_fused _ _ _ _ _ _ b j
  · simp only [fun k => (si k).2.2.2, fun k => (sh k).2.2.2, b3]
    exact gate_fused _ _ _ _ _ _ b j

theorem fusedCellAt_eq (c : Dev nD) (b : Fin 4096) (j : Fin 1024) :
    fusedCellAt (V m c main_arg0) (V m c main_arg1) (V m c main_arg2) (V m c main_v1) (V m c main_v3) (V m c main_v9) b j = cellAt (args m c) b j := by
  obtain ⟨gi, gf, gg, go⟩ := pre_gates m c b j
  unfold fusedCellAt
  rw [gi, gf, gg, V_main_arg2]
  rfl

theorem fused_eq (c : Dev nD) : launchHidden m c = hidden (args m c) ∧ launchCell m c = cell (args m c) := by
  refine ⟨funext fun i => ?_, funext fun i => ?_⟩
  · obtain ⟨b, j, rfl⟩ : ∃ (b : Fin 4096) (j : Fin 1024), i = ix2 b j := ⟨i 0, i 1, eq_ix2 i⟩
    obtain ⟨gi, gf, gg, go⟩ := pre_gates m c b j
    show fusedHiddenAt (V m c main_arg0) (V m c main_arg1) (V m c main_arg2) (V m c main_v1) (V m c main_v3) (V m c main_v9) b j = hiddenAt (args m c) b j
    unfold fusedHiddenAt
    rw [go, fusedCellAt_eq]
    rfl
  · obtain ⟨b, j, rfl⟩ : ∃ (b : Fin 4096) (j : Fin 1024), i = ix2 b j := ⟨i 0, i 1, eq_ix2 i⟩
    exact fusedCellAt_eq m c b j

/-! ## The run, read -/

/-- Every weakly fair execution of the program ends, without a fault, with the first result the new hidden state, the
    second the new cell state, and every argument as it started. -/
theorem run : θ_run defs (onTc (τ := τ) (main (F := Ideal))) ⟨m, fun _ => 0, ρ⟩ fun r => ∀ c : Dev nD,
      r.2.mem ((c.tc : Thread nD τ).loc main_v10_0) = hidden (args m c)
      ∧ r.2.mem ((c.tc : Thread nD τ).loc main_v10_1) = cell (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨((h c).1 6).trans ((finalHidden m c).trans (fused_eq m c).1),
      ((h c).1 7).trans ((finalCell m c).trans (fused_eq m c).2),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩)
    (run_main m ρ)

end Cert.KernelIdeal.Result

end
-- ==== Proof.ReferenceValue.lean ====
/-
  The reference, read entry by entry, is the LSTM step of `LstmCell`.

  Each gate of the reference is two host matrix products (row b of the activations against row j of the weights), each
  with its bias vector broadcast down the rows, added; the logistic function is spelt `1 / (1 + exp(-s))` with the
  constant one; then `c' = σ(f)·c + σ(i)·tanh(g)` and `h' = σ(o)·tanh(c')`.
-/
import proofs.«179367_j14654428413974_2_alg».proof.Proof.Gen.ReferenceIdeal.Read
import proofs.«179367_j14654428413974_2_alg».proof.Proof.LstmCell
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx
open Cert.LstmCell

/-- Index bookkeeping: a function of the two axes given by cases is the index built from its two coordinates. -/
local macro "idx_cases" : tactic =>
  `(tactic| (intro k; funext a; apply Fin.ext; match a with | ⟨0, _⟩ => rfl | ⟨1, _⟩ => rfl))

/-- A gate's pre-activation from its six reads: two sums over the contracted axis, each with its bias entry. -/
theorem gate_of (x h : Act) (Wx : Mat) (bx : Bias) (Wh : Mat) (bh : Bias) (b : Fin 4096) (j : Fin 1024)
    (L1 L2 : Fin 1024 → S4096x1024.Idx) (R1 R2 : Fin 1024 → S1024x1024.Idx) (i1 i2 : S1024.Idx)
    (hL1 : ∀ k, L1 k = ix2 b k) (hR1 : ∀ k, R1 k = ix2 j k) (hi1 : i1 = ix1 j)
    (hL2 : ∀ k, L2 k = ix2 b k) (hR2 : ∀ k, R2 k = ix2 j k) (hi2 : i2 = ix1 j) :
    ((∑ k : Fin 1024, x (L1 k) * Wx (R1 k)) + bx i1) + ((∑ k : Fin 1024, h (L2 k) * Wh (R2 k)) + bh i2)
      = gate x h Wx bx Wh bh b j := by
  subst hi1 hi2
  simp only [hL1, hR1, hL2, hR2]
  rfl

/-- The host's spelling of the logistic function with the constant one. -/
theorem sigmoid_host (s : EReal) :
    FloatOps.hostDivf (F := Ideal) (φ := .f32) (FloatOps.ofBits .f32 0x3F800000#32)
      (FloatOps.addf (FloatOps.ofBits .f32 0x3F800000#32) (FloatOps.hostUnary .exp (FloatOps.hostNegf s))) = Ideal.logistic s := by
  show Ideal.div (Ideal.ofBits .f32 0x3F800000#32) (Ideal.ofBits .f32 0x3F800000#32 + Ideal.exp (-s)) = _
  rw [Ideal.ofBits_one_f32]
  rfl

variable (x0 x1 x2 : (⟨S4096x1024, .f32⟩ : BufTy).Contents (Elt Ideal))
  (x3 x5 x7 x9 x11 x13 x15 x17 : (⟨S1024x1024, .f32⟩ : BufTy).Contents (Elt Ideal))
  (x4 x6 x8 x10 x12 x14 x16 x18 : (⟨S1024, .f32⟩ : BufTy).Contents (Elt Ideal))

/-! ## The four pre-activations -/

theorem pre_i (b : Fin 4096) (j : Fin 1024) :
    val_main_v8 (F := Ideal) x0 x1 x3 x4 x5 x6 (ix2 b j) = gate x0 x1 x3 x4 x5 x6 b j := by
  rw [val_main_v8_apply, val_main_v3_apply, val_main_v7_apply, val_main_v0_apply, val_main_v2_apply, val_main_v1_apply,
    val_main_v4_apply, val_main_v6_apply, val_main_v5_apply]
  exact gate_of x0 x1 x3 x4 x5 x6 b j _ _ _ _ _ _ (by idx_cases) (by idx_cases) (by funext a; apply Fin.ext; match a with | ⟨0, _⟩ => rfl)
    (by idx_cases) (by idx_cases) (by funext a; apply Fin.ext; match a with | ⟨0, _⟩ => rfl)

theorem pre_f (b : Fin 4096) (j : Fin 1024) :
    val_main_v23 (F := Ideal) x0 x1 x7 x8 x9 x10 (ix2 b j) = gate x0 x1 x7 x8 x9 x10 b j := by
  rw [val_main_v23_apply, val_main_v18_apply, val_main_v22_apply, val_main_v15_apply, val_main_v17_apply, val_main_v16_apply,
    val_main_v19_apply, val_main_v21_apply, val_main_v20_apply]
  exact gate_of x0 x1 x7 x8 x9 x10 b j _ _ _ _ _ _ (by idx_cases) (by idx_cases) (by funext a; apply Fin.ext; match a with | ⟨0, _⟩ => rfl)
    (by idx_cases) (by idx_cases) (by funext a; apply Fin.ext; match a with | ⟨0, _⟩ => rfl)

theorem pre_g (b : Fin 4096) (j : Fin 1024) :
    val_main_v38 (F := Ideal) x0 x1 x11 x12 x13 x14 (ix2 b j) = gate x0 x1 x11 x12 x13 x14 b j := by
  rw [val_main_v38_apply, val_main_v33_apply, val_main_v37_apply, val_main_v30_apply, val_main_v32_apply, val_main_v31_apply,
    val_main_v34_apply, val_main_v36_apply, val_main_v35_apply]
  exact gate_of x0 x1 x11 x12 x13 x14 b j _ _ _ _ _ _ (by idx_cases) (by idx_cases) (by funext a; apply Fin.ext; match a with | ⟨0, _⟩ => rfl)
    (by idx_cases) (by idx_cases) (by funext a; apply Fin.ext; match a with | ⟨0, _⟩ => rfl)

theorem pre_o (b : Fin 4096) (j : Fin 1024) :
    val_main_v48 (F := Ideal) x0 x1 x15 x16 x17 x18 (ix2 b j) = gate x0 x1 x15 x16 x17 x18 b j := by
  rw [val_main_v48_apply, val_main_v43_apply, val_main_v47_apply, val_main_v40_apply, val_main_v42_apply, val_main_v41_apply,
    val_main_v44_apply, val_main_v46_apply, val_main_v45_apply]
  exact gate_of x0 x1 x15 x16 x17 x18 b j _ _ _ _ _ _ (by idx_cases) (by idx_cases) (by funext a; apply Fin.ext; match a with | ⟨0, _⟩ => rfl)
    (by idx_cases) (by idx_cases) (by funext a; apply Fin.ext; match a with | ⟨0, _⟩ => rfl)

/-! ## The three logistic gates -/

theorem sig_i (i : S4096x1024.Idx) :
    val_main_v14 (F := Ideal) x0 x1 x3 x4 x5 x6 i = Ideal.logistic (val_main_v8 (F := Ideal) x0 x1 x3 x4 x5 x6 i) := by
  rw [val_main_v14_apply, val_main_v13_apply, val_main_cst_0_apply, val_main_v12_apply, val_main_v11_apply, val_main_cst_apply,
    val_main_v10_apply, val_main_v9_apply]
  exact sigmoid_host _

theorem sig_f (i : S4096x1024.Idx) :
    val_main_v29 (F := Ideal) x0 x1 x7 x8 x9 x10 i = Ideal.logistic (val_main_v23 (F := Ideal) x0 x1 x7 x8 x9 x10 i) := by
  rw [val_main_v29_apply, val_main_v28_apply, val_main_cst_2_apply, val_main_v27_apply, val_main_v26_apply, val_main_cst_1_apply,
    val_main_v25_apply, val_main_v24_apply]
  exact sigmoid_host _

theorem sig_o (i : S4096x1024.Idx) :
    val_main_v54 (F := Ideal) x0 x1 x15 x16 x17 x18 i = Ideal.logistic (val_main_v48 (F := Ideal) x0 x1 x15 x16 x17 x18 i) := by
  rw [val_main_v54_apply, val_main_v53_apply, val_main_cst_4_apply, val_main_v52_apply, val_main_v51_apply, val_main_cst_3_apply,
    val_main_v50_apply, val_main_v49_apply]
  exact sigmoid_host _

/-! ## The two results -/

/-- The nineteen arrays as the step's arguments. -/
abbrev args : Args :=
  ⟨x0, x1, x2, x3, x4, x5, x6, x7, x8, x9, x10, x11, x12, x13, x14, x15, x16, x17, x18⟩

theorem cell_at (b : Fin 4096) (j : Fin 1024) :
    val_main_v57 (F := Ideal) x0 x1 x2 x3 x4 x5 x6 x7 x8 x9 x10 x11 x12 x13 x14 (ix2 b j)
      = cellAt (args x0 x1 x2 x3 x5 x7 x9 x11 x13 x15 x17 x4 x6 x8 x10 x12 x14 x16 x18) b j := by
  rw [val_main_v57_apply, val_main_v55_apply, val_main_v56_apply, val_main_v39_apply, sig_f, sig_i, pre_f, pre_i, pre_g]
  rfl

/-- The reference's second result is the new cell state. -/
theorem cell_eq :
    val_main_v57 (F := Ideal) x0 x1 x2 x3 x4 x5 x6 x7 x8 x9 x10 x11 x12 x13 x14
      = cell (args x0 x1 x2 x3 x5 x7 x9 x11 x13 x15 x17 x4 x6 x8 x10 x12 x14 x16 x18) := by
  funext i
  obtain ⟨b, j, rfl⟩ : ∃ (b : Fin 4096) (j : Fin 1024), i = ix2 b j := ⟨i 0, i 1, eq_ix2 i⟩
  exact cell_at x0 x1 x2 x3 x5 x7 x9 x11 x13 x15 x17 x4 x6 x8 x10 x12 x14 x16 x18 b j

/-- The reference's first result is the new hidden state. -/
theorem hidden_eq :
    val_main_v59 (F := Ideal) x0 x1 x2 x3 x4 x5 x6 x7 x8 x9 x10 x11 x12 x13 x14 x15 x16 x17 x18
      = hidden (args x0 x1 x2 x3 x5 x7 x9 x11 x13 x15 x17 x4 x6 x8 x10 x12 x14 x16 x18) := by
  funext i
  obtain ⟨b, j, rfl⟩ : ∃ (b : Fin 4096) (j : Fin 1024), i = ix2 b j := ⟨i 0, i 1, eq_ix2 i⟩
  rw [val_main_v59_apply, val_main_v58_apply, sig_o, pre_o, cell_at]
  rfl

end Cert.ReferenceIdeal.RefValue

end
-- ==== Proof.lean ====
/-
  The certificate of one LSTM step: a gridded kernel that fuses each side's four linear layers into one matrix product
  against a stack of the four weight matrices, against the plain reference that applies the eight layers one by one.

  Both programs run to the end from any memory and leave their nineteen arguments unchanged (the kernel's launch:
  `Proof/KernelRegion.lean`, `Proof/KernelIdealRegion.lean`; the reference is a straight line of whole-array operations).
  Nothing of the kernel is rewritten for the extended-real reading, so there is nothing to preserve.  Over the extended
  reals both programs compute, at every batch row and feature, the step of `Proof/LstmCell.lean`: the kernel's two
  result arrays by `Proof/KernelValue.lean`, the reference's by `Proof/ReferenceValue.lean`.  The one law between the
  two spellings is that `(a + b) + (c + d) = (a + c) + (b + d)` for extended reals, so the finiteness of the inputs is
  never used.
-/
import proofs.«179367_j14654428413974_2_alg».proof.Defs
import proofs.«179367_j14654428413974_2_alg».proof.Proof.Gen.Kernel
import proofs.«179367_j14654428413974_2_alg».proof.Proof.Gen.KernelIdeal
import proofs.«179367_j14654428413974_2_alg».proof.Proof.Gen.ReferenceIdeal
import proofs.«179367_j14654428413974_2_alg».proof.Proof.Gen.Pre_finite_inputs
import proofs.«179367_j14654428413974_2_alg».proof.Proof.Gen.ReferenceIdeal.Read
import proofs.«179367_j14654428413974_2_alg».proof.Proof.KernelRegion
import proofs.«179367_j14654428413974_2_alg».proof.Proof.KernelValue
import proofs.«179367_j14654428413974_2_alg».proof.Proof.ReferenceValue
import Idealize.ShloMosaic.Adequacy
import Idealize.ShloMosaic.Init

noncomputable section

namespace Cert.Proof

open Idealize.ShloMosaic Idealize.SL.Sem

theorem frame_k : Cert.frame_Kernel := fun m ρ _ => Cert.Kernel.Region.frame m ρ

theorem frame_ki : Cert.frame_KernelIdeal := fun m ρ _ => Cert.KernelIdeal.Region.frame m ρ

/-- The reference's run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the nineteen arguments, the kernel's two result arrays and the reference's two
    results are the new hidden state and the new cell state of the same step. -/
theorem algebraic : Cert.algebraic_KernelIdeal_ReferenceIdeal := by
  intro m ρ m' ρ' _ hagree
  refine ⟨fun c => Cert.LstmCell.hidden (Cert.KernelIdeal.Result.args m c),
    fun c => Cert.LstmCell.cell (Cert.KernelIdeal.Result.args m c), Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16, a17, a18⟩ := hagree c
    rw [a0, a1, a2, a3, a4, a5, a6, a7, a8, a9, a10, a11, a12, a13, a14, a15, a16, a17, a18, Cert.ReferenceIdeal.Read.val_main_v59_eq, Cert.ReferenceIdeal.RefValue.hidden_eq]
  · obtain ⟨a0, a1, a2, a3, a4, a5, a6, a7, a8, a9, a10, a11, a12, a13, a14, a15, a16, a17, a18⟩ := hagree c
    rw [a0, a1, a2, a3, a4, a5, a6, a7, a8, a9, a10, a11, a12, a13, a14, Cert.ReferenceIdeal.Read.val_main_v57_eq, Cert.ReferenceIdeal.RefValue.cell_eq _ _ _ _ _ _ _ _ _ _ _ _ _ _ _ _ _ _ _]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
